-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S_, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .i1⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .i1⟩
  | .hbm, ⟨50, _⟩ => ⟨S4096x4096, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S8192x4096, .f32⟩
  | .hbm, ⟨59, _⟩ => ⟨S1x4096, .f32⟩
  | .hbm, ⟨60, _⟩ => ⟨S8192x4096, .f32⟩
  | .hbm, ⟨61, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_cst_5 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_cst_6 : Ref sig .tc := ⟨.hbm, 28, rfl⟩
abbrev main_v8 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_v11 : Ref sig .tc := ⟨.hbm, 33, rfl⟩
abbrev main_cst_8 : Ref sig .tc := ⟨.hbm, 34, rfl⟩
abbrev main_cst_9 : Ref sig .tc := ⟨.hbm, 35, rfl⟩
abbrev main_call3_v0 : Ref sig .tc := ⟨.hbm, 36, rfl⟩
abbrev main_call3_v1 : Ref sig .tc := ⟨.hbm, 37, rfl⟩
abbrev main_v12 : Ref sig .tc := ⟨.hbm, 38, rfl⟩
abbrev main_cst_10 : Ref sig .tc := ⟨.hbm, 39, rfl⟩
abbrev main_call4_v0 : Ref sig .tc := ⟨.hbm, 40, rfl⟩
abbrev main_v13 : Ref sig .tc := ⟨.hbm, 41, rfl⟩
abbrev main_v14 : Ref sig .tc := ⟨.hbm, 42, rfl⟩
abbrev main_cst_11 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_12 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.Spec.lean ====
/-
  The ternary GEMM, as mathematics on the extended reals.

  Both programs compute, for an activation matrix `X` [8192, 4096], a latent weight matrix `W` [4096, 4096] and three
  per-output-channel vectors `ap`, `an`, `b` [4096],

      out (r, n)  =  ( ∑ₖ act (X (r, k)) · wgt (W (n, k)) (ap n) (an n) )  +  b n ,

  where `act x` is the ternary sign of `x` against the threshold `δ` (the float nearest 0.05): `1` above `δ`, `-1`
  below `-δ`, `0` between; and `wgt w ap an` is the scaled ternary weight: `ap` above `δ`, `-an` (written `0 - an`)
  below `-δ`, `0` between.

  Two laws connect the programs' spellings of these:

    * the reference first clips `x` to `[-2.5, 2.5]`; since `δ < 2.5`, clipping never moves a value across `δ` or
      `-δ`, so `act (clip x) = act x` — for every extended real, infinite ones included;
    * the reference builds the weight from the two indicator planes of the ternary sign, `ap · [s = 1] − an · [s = −1]`;
      the three cases of `s` give `ap·1 − an·0 = ap`, `ap·0 − an·1 = 0 − an`, `ap·0 − an·0 = 0`: the same function,
      again with no finiteness needed (`x · 0 = 0` and `x − 0 = x` hold for every extended real).

  The kernel sums over `k` in eight consecutive blocks of 512; addition of extended reals is commutative and
  associative, so the blocked sum is the whole sum (`sum_steps`).
-/
import Idealize.ShloMosaic.PureOps.Ideal
import Idealize.ShloMosaic.PureOps.Ideal.Laws
import Idealize.ShloMosaic.Lib.ValueIdx
import proofs.«116337_j37838661877796_2_alg».proof.Proof.LibSumRegroup

noncomputable section

namespace Cert.Ternary

open Idealize.ShloMosaic Idealize.ShloMosaic.ValueIdx

/-! ## The float literals, as the extended reals their patterns denote -/

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

/-- The threshold: the float nearest 0.05 is `13421773 / 2^28`. -/
theorem ofBits_delta : Ideal.ofBits .f32 0x3D4CCCCD#32 = ((13421773 / 268435456 : ℝ) : EReal) := by
  simp [Ideal.ofBits, Ideal.ieee, -EReal.coe_mul]; norm_num

theorem ofBits_neg_delta : Ideal.ofBits .f32 0xBD4CCCCD#32 = ((-(13421773 / 268435456) : ℝ) : EReal) := by
  simp [Ideal.ofBits, Ideal.ieee, -EReal.coe_mul]; norm_num

/-- The clip bounds `±2.5`. -/
theorem ofBits_clip_hi : Ideal.ofBits .f32 0x40200000#32 = ((5 / 2 : ℝ) : EReal) := by
  simp [Ideal.ofBits, Ideal.ieee, -EReal.coe_mul]; norm_num

theorem ofBits_clip_lo : Ideal.ofBits .f32 0xC0200000#32 = ((-(5 / 2) : ℝ) : EReal) := by
  simp [Ideal.ofBits, Ideal.ieee, -EReal.coe_mul]; norm_num

/-! ## A selection on a comparison is an `if` on the order -/

theorem select_gt {α : Type} (x y : EReal) (a b : α) :
    Scalar.select (Ideal.cmp .ogt x y) a b = if y < x then a else b := by
  unfold Scalar.select Ideal.cmp
  by_cases h : y < x <;> simp [h]

theorem select_lt {α : Type} (x y : EReal) (a b : α) :
    Scalar.select (Ideal.cmp .olt x y) a b = if x < y then a else b := by
  unfold Scalar.select Ideal.cmp
  by_cases h : x < y <;> simp [h]

/-- An equality test converted to a float is the indicator of the equality. -/
theorem toNat_eq (x y : EReal) :
    (((Ideal.cmp .oeq x y).toNat : ℝ) : EReal) = if x = y then 1 else 0 := by
  unfold Ideal.cmp
  by_cases h : x = y <;> simp [h]

/-! ## The ternary sign and the scaled ternary weight -/

/-- The ternary sign of `x` against the threshold, as both programs spell it: two nested selections. -/
def act (x : EReal) : EReal :=
  Scalar.select (Ideal.cmp .ogt x (Ideal.ofBits .f32 0x3D4CCCCD#32)) (Ideal.ofBits .f32 0x3F800000#32)
    (Scalar.select (Ideal.cmp .olt x (Ideal.ofBits .f32 0xBD4CCCCD#32)) (Ideal.ofBits .f32 0xBF800000#32)
      (Ideal.ofBits .f32 0x00000000#32))

theorem act_eq (x : EReal) :
    act x = if ((13421773 / 268435456 : ℝ) : EReal) < x then ((1 : ℝ) : EReal)
      else if x < ((-(13421773 / 268435456) : ℝ) : EReal) then ((-1 : ℝ) : EReal) else 0 := by
  unfold act
  rw [select_gt, select_lt, ofBits_one, ofBits_neg_one, ofBits_delta, ofBits_neg_delta, Ideal.ofBits_zero_f32]

/-- Clipping to `[-2.5, 2.5]` first does not change the ternary sign: `δ < 2.5`. -/
theorem act_clip (x : EReal) :
    act (min (Ideal.ofBits .f32 0x40200000#32) (max (Ideal.ofBits .f32 0xC0200000#32) x)) = act x := by
  rw [act_eq, act_eq, ofBits_clip_hi, ofBits_clip_lo]
  have h1 : ((13421773 / 268435456 : ℝ) : EReal) < ((5 / 2 : ℝ) : EReal) := EReal.coe_lt_coe_iff.2 (by norm_num)
  have h2 : ¬((13421773 / 268435456 : ℝ) : EReal) < ((-(5 / 2) : ℝ) : EReal) := fun h => by
    have := EReal.coe_lt_coe_iff.1 h; norm_num at this
  have h3 : ¬((5 / 2 : ℝ) : EReal) < ((-(13421773 / 268435456) : ℝ) : EReal) := fun h => by
    have := EReal.coe_lt_coe_iff.1 h; norm_num at this
  have h4 : ((-(5 / 2) : ℝ) : EReal) < ((-(13421773 / 268435456) : ℝ) : EReal) := EReal.coe_lt_coe_iff.2 (by norm_num)
  simp only [lt_min_iff, lt_max_iff, min_lt_iff, max_lt_iff, h1, h2, h3, h4, true_and, false_or]

/-- The scaled ternary weight, as the kernel spells it: `ap` above the threshold, `0 - an` below its negative,
    `0` between. -/
def wgt (w ap an : EReal) : EReal :=
  Scalar.select (Ideal.cmp .ogt w (Ideal.ofBits .f32 0x3D4CCCCD#32)) ap
    (Scalar.select (Ideal.cmp .olt w (Ideal.ofBits .f32 0xBD4CCCCD#32)) (Ideal.ofBits .f32 0x00000000#32 - an)
      (Ideal.ofBits .f32 0x00000000#32))

/-- The reference's spelling — the two indicator planes of the ternary sign, scaled and subtracted — is the same
    function. -/
theorem planes_eq_wgt (w ap an : EReal) :
    ap * (((Ideal.cmp .oeq (act w) (Ideal.ofBits .f32 0x3F800000#32)).toNat : ℝ) : EReal)
        - an * (((Ideal.cmp .oeq (act w) (Ideal.ofBits .f32 0xBF800000#32)).toNat : ℝ) : EReal)
      = wgt w ap an := by
  unfold wgt
  rw [toNat_eq, toNat_eq, act_eq, select_gt, select_lt, ofBits_one, ofBits_neg_one, ofBits_delta, ofBits_neg_delta,
    Ideal.ofBits_zero_f32]
  have n1 : ((1 : ℝ) : EReal) ≠ ((-1 : ℝ) : EReal) := fun h => by have := EReal.coe_eq_coe_iff.1 h; norm_num at this
  have n2 : ((-1 : ℝ) : EReal) ≠ ((1 : ℝ) : EReal) := fun h => n1 h.symm
  have n3 : (0 : EReal) ≠ ((1 : ℝ) : EReal) := fun h => by
    have := EReal.coe_eq_coe_iff.1 (EReal.coe_zero.trans h); norm_num at this
  have n4 : (0 : EReal) ≠ ((-1 : ℝ) : EReal) := fun h => by
    have := EReal.coe_eq_coe_iff.1 (EReal.coe_zero.trans h); norm_num at this
  by_cases h1 : ((13421773 / 268435456 : ℝ) : EReal) < w
  · rw [if_pos h1, if_pos h1, if_pos rfl, if_neg n1, mul_one, mul_zero, sub_zero]
  · rw [if_neg h1, if_neg h1]
    by_cases h2 : w < ((-(13421773 / 268435456) : ℝ) : EReal)
    · rw [if_pos h2, if_pos h2, if_neg n2, if_pos rfl, mul_zero, mul_one]
    · rw [if_neg h2, if_neg h2, if_neg n3, if_neg n4, mul_zero, mul_zero, sub_zero]

/-! ## The specification -/

/-- One entry of the result. -/
def entry (X : (⟨2, ![8192, 4096]⟩ : Shape).Idx → EReal) (W : (⟨2, ![4096, 4096]⟩ : Shape).Idx → EReal)
    (ap an b : (⟨1, ![4096]⟩ : Shape).Idx → EReal) (r : Fin 8192) (n : Fin 4096) : EReal :=
  (∑ k : Fin 4096, act (X (ix2 r k)) * wgt (W (ix2 n k)) (ap (ix1 n)) (an (ix1 n))) + b (ix1 n)

/-- The result array: entry `(r, n)` at index `(r, n)`. -/
def G (X : (⟨2, ![8192, 4096]⟩ : Shape).Idx → EReal) (W : (⟨2, ![4096, 4096]⟩ : Shape).Idx → EReal)
    (ap an b : (⟨1, ![4096]⟩ : Shape).Idx → EReal) : (⟨2, ![8192, 4096]⟩ : Shape).Idx → EReal :=
  fun i => entry X W ap an b (i 0) (i 1)

theorem G_ix2 (X : (⟨2, ![8192, 4096]⟩ : Shape).Idx → EReal) (W : (⟨2, ![4096, 4096]⟩ : Shape).Idx → EReal)
    (ap an b : (⟨1, ![4096]⟩ : Shape).Idx → EReal) (r : Fin 8192) (n : Fin 4096) :
    G X W ap an b (ix2 r n) = entry X W ap an b r n := rfl

/-! ## The sum over `k`, eight blocks of 512 at a time -/

/-- K-step `s`'s contribution to entry `(r, n)`: the terms `k = 512·s, …, 512·s + 511` (the step number read modulo
    eight, so that the definition needs no bound). -/
def step (X : (⟨2, ![8192, 4096]⟩ : Shape).Idx → EReal) (W : (⟨2, ![4096, 4096]⟩ : Shape).Idx → EReal)
    (ap an : (⟨1, ![4096]⟩ : Shape).Idx → EReal) (r : Fin 8192) (n : Fin 4096) (s : ℕ) : EReal :=
  ∑ q : Fin 512, act (X (ix2 r (⟨512 * (s % 8) + q.val, by have := q.isLt; have := Nat.mod_lt s (by decide : 0 < 8); omega⟩ : Fin 4096)))
    * wgt (W (ix2 n (⟨512 * (s % 8) + q.val, by have := q.isLt; have := Nat.mod_lt s (by decide : 0 < 8); omega⟩ : Fin 4096)))
        (ap (ix1 n)) (an (ix1 n))

/-- A K-step's contribution depends on the step number only through its residue modulo eight. -/
theorem step_add (X : (⟨2, ![8192, 4096]⟩ : Shape).Idx → EReal) (W : (⟨2, ![4096, 4096]⟩ : Shape).Idx → EReal)
    (ap an : (⟨1, ![4096]⟩ : Shape).Idx → EReal) (r : Fin 8192) (n : Fin 4096) (g s : ℕ) :
    step X W ap an r n (8 * g + s) = step X W ap an r n s := by
  unfold step
  simp only [Nat.mul_add_mod]

/-- The whole sum over `k` is the sum of the eight K-steps' contributions. -/
theorem sum_steps (X : (⟨2, ![8192, 4096]⟩ : Shape).Idx → EReal) (W : (⟨2, ![4096, 4096]⟩ : Shape).Idx → EReal)
    (ap an : (⟨1, ![4096]⟩ : Shape).Idx → EReal) (r : Fin 8192) (n : Fin 4096) :
    (∑ k : Fin 4096, act (X (ix2 r k)) * wgt (W (ix2 n k)) (ap (ix1 n)) (an (ix1 n)))
      = ∑ s ∈ Finset.range 8, step X W ap an r n s := by
  rw [Cert.SumRegroup.sum_fin_mul 8 512 fun k : Fin (8 * 512) =>
    act (X (ix2 r k)) * wgt (W (ix2 n k)) (ap (ix1 n)) (an (ix1 n)), Finset.sum_range]
  refine Finset.sum_congr rfl fun p _ => ?_
  unfold step
  refine Finset.sum_congr rfl fun q _ => ?_
  have hp : p.val % 8 = p.val := Nat.mod_eq_of_lt p.isLt
  have e : (⟨p.val * 512 + q.val, Cert.SumRegroup.mul_add_lt p q⟩ : Fin (8 * 512))
      = (⟨512 * (p.val % 8) + q.val, by have := q.isLt; have := Nat.mod_lt p.val (by decide : 0 < 8); omega⟩ : Fin 4096) :=
    Fin.ext (by show p.val * 512 + q.val = 512 * (p.val % 8) + q.val; rw [hp, Nat.mul_comm])
  rw [e]

end Cert.Ternary

end
-- ==== Proof.RefValue.lean ====
/-
  The reference, read at an entry, is the specification.

  The reference clips the activations to `[-2.5, 2.5]`, takes the ternary sign of the clipped activations and of the
  latent weights, builds the scaled weight from the sign's two indicator planes, contracts the two matrices over their
  common second axis and adds the bias row. Read at entry `(r, n)`, stage by stage:

    * the activation factor at `(r, k)` is `act (clip (X (r, k))) = act (X (r, k))` (clipping does not move a value
      across the thresholds);
    * the weight factor at `(n, k)` is `ap n · [s = 1] − an n · [s = −1]` with `s = act (W (n, k))`, which is
      `wgt (W (n, k)) (ap n) (an n)`; `ap` and `an` reach it as columns broadcast along the rows of `W`;
    * the contraction is the sum over `k` of the products, and the bias row is broadcast down the rows.
-/
import proofs.«116337_j37838661877796_2_alg».proof.Proof.RefRead
import proofs.«116337_j37838661877796_2_alg».proof.Proof.Spec
import Idealize.ShloMosaic.Lib.ValueIdx

noncomputable section

namespace Cert.ReferenceIdeal.RefValue

open Cert.ReferenceIdeal Cert.ReferenceIdeal.ReadP Idealize.ShloMosaic Idealize.ShloMosaic.ValueIdx Cert.Ternary

/-- The ternarized, clipped activations. -/
theorem act_stage (x0 : (⟨S8192x4096, .f32⟩ : BufTy).Contents (Elt Ideal)) (l : S8192x4096.Idx) :
    val_main_v7 (F := Ideal) x0 l = act (x0 l) := by
  simp only [val_main_v7_apply, val_main_v6_apply, val_main_v2_apply, val_main_v0_apply, val_main_call0_v2_apply,
    val_main_call0_v4_apply, val_main_call0_v3_apply, val_main_cst_0_apply, val_main_call0_v1_apply,
    val_main_call0_v0_apply, val_main_cst_apply, val_main_v1_apply, val_main_cst_1_apply, val_main_call2_v0_apply,
    val_main_cst_5_apply, val_main_v5_apply, val_main_v4_apply, val_main_v3_apply, val_main_cst_2_apply,
    val_main_call1_v0_apply, val_main_cst_3_apply, val_main_call1_v1_apply, val_main_cst_4_apply]
  exact act_clip (x0 l)

/-- The ternary sign of the latent weights. -/
theorem sign_stage (x1 : (⟨S4096x4096, .f32⟩ : BufTy).Contents (Elt Ideal)) (l : S4096x4096.Idx) :
    val_main_v14 (F := Ideal) x1 l = act (x1 l) := by
  simp only [val_main_v14_apply, val_main_v13_apply, val_main_v9_apply, val_main_v8_apply, val_main_cst_6_apply,
    val_main_call4_v0_apply, val_main_cst_10_apply, val_main_v12_apply, val_main_v11_apply, val_main_v10_apply,
    val_main_cst_7_apply, val_main_call3_v0_apply, val_main_cst_8_apply, val_main_call3_v1_apply, val_main_cst_9_apply]
  rfl

/-- The scaled weight, from the two indicator planes. -/
theorem wgt_stage (x1 : (⟨S4096x4096, .f32⟩ : BufTy).Contents (Elt Ideal))
    (x2 x3 : (⟨S4096, .f32⟩ : BufTy).Contents (Elt Ideal)) (n k : Fin 4096) :
    val_main_v27 (F := Ideal) x1 x2 x3 (ix2 n k) = wgt (x1 (ix2 n k)) (x2 (ix1 n)) (x3 (ix1 n)) := by
  have e2 : idx_main_v21 (idx_main_v22 (ix2 n k)) = ix1 n :=
    funext fun a => Fin.ext (by match a with | ⟨0, _⟩ => rfl)
  have e3 : idx_main_v24 (idx_main_v25 (ix2 n k)) = ix1 n :=
    funext fun a => Fin.ext (by match a with | ⟨0, _⟩ => rfl)
  simp only [val_main_v27_apply, val_main_v23_apply, val_main_v26_apply, val_main_v22_apply, val_main_v21_apply,
    val_main_v25_apply, val_main_v24_apply, val_main_v17_apply, val_main_v16_apply, val_main_v20_apply,
    val_main_v19_apply, val_main_v15_apply, val_main_cst_11_apply, val_main_v18_apply, val_main_cst_12_apply,
    sign_stage, e2, e3]
  exact planes_eq_wgt _ _ _

/-- The reference's result is the specification `G` of its five arguments. -/
theorem ref_eq (x0 : (⟨S8192x4096, .f32⟩ : BufTy).Contents (Elt Ideal))
    (x1 : (⟨S4096x4096, .f32⟩ : BufTy).Contents (Elt Ideal))
    (x2 x3 x4 : (⟨S4096, .f32⟩ : BufTy).Contents (Elt Ideal)) :
    val_main_v31 (F := Ideal) x0 x1 x2 x3 x4 = G x0 x1 x2 x3 x4 := by
  funext i
  obtain ⟨r, n, rfl⟩ : ∃ (r : Fin 8192) (n : Fin 4096), i = ix2 r n := ⟨i 0, i 1, eq_ix2 i⟩
  have eb : idx_main_v29 (idx_main_v30 (ix2 r n)) = ix1 n :=
    funext fun a => Fin.ext (by match a with | ⟨0, _⟩ => rfl)
  have el : ∀ k : Fin 4096, lidx_main_v28 (ix2 r n) k = ix2 r k := fun k =>
    funext fun a => Fin.ext (by match a with | ⟨0, _⟩ => rfl | ⟨1, _⟩ => rfl)
  have er : ∀ k : Fin 4096, ridx_main_v28 (ix2 r n) k = ix2 n k := fun k =>
    funext fun a => Fin.ext (by match a with | ⟨0, _⟩ => rfl | ⟨1, _⟩ => rfl)
  rw [G_ix2, val_main_v31_apply, val_main_v28_apply, val_main_v30_apply, val_main_v29_apply, eb]
  unfold entry
  simp only [Ideal.addf_def, el, er, act_stage, wgt_stage]

end Cert.ReferenceIdeal.RefValue

end
-- ==== Proof.Pieces.lean ====
/-
  What one grid step of the ternary GEMM leaves behind, as values.

  The body of the kernel keeps a running sum in a scratch block `acc` of shape [1024, 1024]. At a grid step it

    * (first K-step only) stores the zero block into `acc`;
    * adds the step's partial product `P` — the product of the ternarized activation block with the scaled
      ternary weight block — to `acc`;
    * (last K-step only) stores `acc + bias` into the output block.

  So there are three kinds of step: a first one, which leaves `0 + P` in the scratch; a middle one, which leaves
  `acc + P` over what the step before left; and a last one, which leaves `acc + P` in the scratch and
  `(acc + P) + bias` in the output block. Each store covers its whole block and each load reads a whole block, so
  what a step leaves is the stored value itself, a function of the blocks the step was handed. The statements hold
  for any float instance.
-/
import proofs.«116337_j37838661877796_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every load and store of the body starts at the origin of its block. -/
theorem hz : (![0, 0] : Fin 2 → Nat) = fun _ => 0 := funext fun a => by fin_cases a <;> rfl

/-- A first K-step: the scratch is zeroed, read back, and left holding `0 + P` (the zero block is `k0_pay3`, the
    partial product of the four input blocks `k0_pay4`, their sum `k0_pay1`). -/
theorem sout_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .f32) (x1 : Vec F S512x1024 .f32) (x2 : Vec F S1x1024 .f32) (x3 : Vec F S1x1024 .f32) (x4 : Vec F S1x1024 .f32) :
    sout0_A_0 c i arg3 harg3 arg4 harg4 arg5 harg5 arg6 harg6 arg7 harg7 arg8 harg8 arg9 harg9 hc0 hc1 x0 x1 x2 x3 x4 = k0_pay1 (k0_pay4 x0 x1 x2 x3) k0_pay3 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S1x1024) hz, View.ld_unit_zero (S := S1024x1024) hz]

/-- A middle K-step: the scratch held `xs0` and is left holding `xs0 + P`. -/
theorem sout_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .f32) (x1 : Vec F S512x1024 .f32) (x2 : Vec F S1x1024 .f32) (x3 : Vec F S1x1024 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay1 (k0_pay4 x0 x1 x2 x3) xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S1x1024) hz, View.ld_unit_zero (S := S1024x1024) hz]

/-- A last K-step leaves the same `xs0 + P` in the scratch … -/
theorem sout_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S512x1024 .f32) (x2 : Vec F S1x1024 .f32) (x3 : Vec F S1x1024 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay1 (k0_pay4 x0 x1 x2 x3) xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S1x1024) hz, View.ld_unit_zero (S := S1024x1024) hz]

/-- … and, reading that sum back, stores it plus the bias row (broadcast down the rows: `k0_pay2`) into the output
    block. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S512x1024 .f32) (x2 : Vec F S1x1024 .f32) (x3 : Vec F S1x1024 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay2 (k0_pay1 (k0_pay4 x0 x1 x2 x3) xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg7.read_unread, harg9.read_unread, View.ld_unit_zero (S := S1024x512) hz, View.ld_unit_zero (S := S512x1024) hz,
    View.ld_unit_zero (S := S1x1024) hz, View.ld_unit_zero (S := S1024x1024) hz]

end Cert.KernelIdeal.Pieces

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Payload.lean ====
/-
  The body's four stored values, read at an entry, on the extended reals.

  With `x0` the activation block [1024, 512], `x1` the (transposed) weight block [512, 1024] and `x2`, `x3`, `x4` the
  one-row blocks [1, 1024] of `alpha_p`, `alpha_n` and the bias:

    * the K-step's partial product at `(p, j)` is `∑_q act (x0 (p, q)) · wgt (x1 (q, j)) (x2 (0, j)) (x3 (0, j))` — the
      narrowing to bf16 before the product is the identity on extended reals, the product into a zero accumulator is
      the plain sum of products, and the one-row blocks are broadcast down the 512 rows;
    * the zero block is `0` everywhere;
    * the accumulation is `acc + partial`, entry by entry;
    * the epilogue is `acc + bias`, the bias row broadcast down the 1024 rows.
-/
import proofs.«116337_j37838661877796_2_alg».proof.Proof.Gen.KernelIdeal.Skeleton
import proofs.«116337_j37838661877796_2_alg».proof.Proof.Spec
import proofs.«116337_j37838661877796_2_alg».proof.Proof.LibPlainDot
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Ternary

/-- One entry of the scaled ternary weight block: a selection between the broadcast `alpha_p` row, the broadcast
    negated `alpha_n` row and zero, on two comparisons of the latent weight with the thresholds. -/
theorem wgt_at (w A B : FVec Ideal S512x1024 .f32) (hb : (FTy.bf16).bits < (FTy.f32).bits) (i : S512x1024.Idx)
    (w' a an : EReal) (hw : w i = w') (hA : A i = a) (hB : B i = Ideal.ofBits .f32 0x00000000#32 - an) :
    (truncf .bf16 (select (cmpf .ogt w (broadcast S512x1024 (FloatOps.ofBits .f32 0x3D4CCCCD#32))) A
        (select (cmpf .olt w (broadcast S512x1024 (FloatOps.ofBits .f32 0xBD4CCCCD#32))) B
          (broadcast S512x1024 (FloatOps.ofBits .f32 0x00000000#32)))) hb : FVec Ideal S512x1024 .bf16) i
      = wgt w' a an := by
  subst hw; subst hA
  show Scalar.select (Ideal.cmp .ogt (w i) _) (A i) (Scalar.select (Ideal.cmp .olt (w i) _) (B i) _) = _
  rw [hB]
  rfl

/-- The K-step's partial product, at entry `(p, j)`. -/
theorem pay4_apply (x0 : Vec Ideal S1024x512 .f32) (x1 : Vec Ideal S512x1024 .f32) (x2 x3 : Vec Ideal S1x1024 .f32)
    (p j : Fin 1024) :
    k0_pay4 (F := Ideal) x0 x1 x2 x3 (ix2 p j)
      = ∑ q : Fin 512, act (x0 (ix2 p q)) * wgt (x1 (ix2 q j)) (x2 (ix2 (0 : Fin 1) j)) (x3 (ix2 (0 : Fin 1) j)) := by
  unfold k0_pay4
  refine (Cert.PlainDot.matmul_zero_ix2 _ rfl none _ _ p j).trans ?_
  refine Finset.sum_congr rfl fun q _ => ?_
  refine congrArg₂ (· * ·) rfl ?_
  refine wgt_at _ _ _ _ _ _ _ _ ?_ ?_ ?_
  · exact congrFun (shapeCast_self x1 _) _
  · refine (broadcastTo_1b_ab_apply _ _ q j).trans ?_
    rw [shapeCast_self, shapeCast_self]
  · refine (broadcastTo_1b_ab_apply _ _ q j).trans ?_
    rw [shapeCast_self, shapeCast_self]
    rfl

/-- The zero block. -/
theorem pay3_apply (i : S1024x1024.Idx) : k0_pay3 (F := Ideal) i = 0 := by
  unfold k0_pay3
  rw [shapeCast_self]
  exact Ideal.ofBits_zero_f32

/-- The accumulation: what the scratch held plus the partial product. -/
theorem pay1_apply (v34 : FVec Ideal S1024x1024 .f32) (v35 : Vec Ideal S1024x1024 .f32) (i : S1024x1024.Idx) :
    k0_pay1 v34 v35 i = v35 i + v34 i := by
  unfold k0_pay1
  rw [shapeCast_self]
  rfl

/-- The epilogue: the accumulated block plus the bias row. -/
theorem pay2_apply (v43 : Vec Ideal S1024x1024 .f32) (v44 : Vec Ideal S1x1024 .f32) (p j : Fin 1024) :
    k0_pay2 v43 v44 (ix2 p j) = v43 (ix2 p j) + v44 (ix2 (0 : Fin 1) j) := by
  unfold k0_pay2
  refine congrArg₂ (· + ·) rfl ?_
  refine (broadcastTo_1b_ab_apply _ _ p j).trans ?_
  rw [shapeCast_self]

end Cert.KernelIdeal.Payload

end
-- ==== Proof.Blocks.lean ====
/-
  The kernel's input blocks, as entries of the argument arrays.

  The grid is 8 × 4 × 8: grid point `t` (points are numbered row-major, the K axis fastest) works on row block
  `t / 32` of the activations, column block `(t / 8) % 4` of the outputs and K block `t % 8`. Before the launch the
  host transposes the latent weights (so that the kernel reads them K-major) and adds a leading unit axis to the three
  per-channel vectors. So, with `X`, `W`, `ap`, `an`, `b` the five arguments, at point `t`

    * the activation block   at `(p, q)` is `X (1024·(t/32) + p, 512·(t%8) + q)`;
    * the weight block       at `(q, j)` is `Wᵀ (512·(t%8) + q, 1024·((t/8)%4) + j) = W (1024·((t/8)%4) + j, 512·(t%8) + q)`;
    * the three one-row blocks at `(0, j)` are `ap`, `an`, `b` at `1024·((t/8)%4) + j`.

  A block's coordinate on an axis is always (block index) × (block size) + (coordinate inside the block); the block
  indices, printed as index maps of the grid coordinates, are decided once over the 256 points.
-/
import proofs.«116337_j37838661877796_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem N256 : cfg0.N = 256 := N_0

/-! ## The arrays the windows stage, after the host operations before the launch -/

/-- The weight window stages the transposed latent weights. -/
theorem V_wt (c : Dev nD) : (V m c main_v0 : S4096x4096.Idx → Elt F .f32)
    = transpose S4096x4096 [1, 0] (m ((c : Thread nD τ).loc main_arg1)) transposes_S4096x4096_S4096x4096_1_0 := by
  dsimp only [Gen.V, Gen.hostOps0]
  after_results

/-- The three one-row windows stage `alpha_p`, `alpha_n` and the bias with a leading unit axis. -/
theorem V_ap (c : Dev nD) : (V m c main_v1 : S1x4096.Idx → Elt F .f32)
    = shapeCast S1x4096 (m ((c : Thread nD τ).loc main_arg2)) shapeCasts_S4096_S1x4096 := by
  dsimp only [Gen.V, Gen.hostOps0]
  after_results
  rfl

theorem V_an (c : Dev nD) : (V m c main_v2 : S1x4096.Idx → Elt F .f32)
    = shapeCast S1x4096 (m ((c : Thread nD τ).loc main_arg3)) shapeCasts_S4096_S1x4096 := by
  dsimp only [Gen.V, Gen.hostOps0]
  after_results
  rfl

theorem V_bias (c : Dev nD) : (V m c main_v3 : S1x4096.Idx → Elt F .f32)
    = shapeCast S1x4096 (m ((c : Thread nD τ).loc main_arg4)) shapeCasts_S4096_S1x4096 := by
  dsimp only [Gen.V, Gen.hostOps0]
  after_results
  rfl

/-! ## The block indices, decided over the grid -/

theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-! ## The blocks at coordinates -/

/-- The activation block. -/
theorem iblk0_apply (c : Dev nD) (t : Fin cfg0.N) (p : Fin 1024) (q : Fin 512) (r : Fin 8192) (k : Fin 4096)
    (hr : r.val = 1024 * (t.val / 32) + p.val) (hk : k.val = 512 * (t.val % 8) + q.val) :
    (iblk m c 0 t : Vec F S1024x512 .f32) (ix2 p q) = m ((c : Thread nD τ).loc main_arg0) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * q.val = k.val; rw [e1, hk]; omega

/-- The weight block: the transposed array read at `(k, n)` is the latent weights at `(n, k)`. -/
theorem iblk1_apply (c : Dev nD) (t : Fin cfg0.N) (q : Fin 512) (j : Fin 1024) (n k : Fin 4096)
    (hn : n.val = 1024 * (t.val / 8 % 4) + j.val) (hk : k.val = 512 * (t.val % 8) + q.val) :
    (iblk m c 1 t : Vec F S512x1024 .f32) (ix2 q j) = m ((c : Thread nD τ).loc main_arg1) (ix2 n k) := by
  obtain ⟨-, -, e0, e1, -⟩ := idx_facts t
  unfold iblk
  rw [View.read_apply]
  show (V m c main_v0 : S4096x4096.Idx → Elt F .f32) _ = _
  rw [V_wt]
  refine Eq.trans (congrArg _ ?_) (transpose_ix2_apply _ _ k n)
  funext a
  apply Fin.ext
  match a with
  | ⟨0, _⟩ => show win0_1.index t (0 : Fin 2) * 512 + 1 * q.val = k.val; rw [e0, hk]; omega
  | ⟨1, _⟩ => show win0_1.index t (1 : Fin 2) * 1024 + 1 * j.val = n.val; rw [e1, hn]; omega

/-- A vector with a leading unit axis, read through a one-row block at `(0, j)`. -/
theorem row_apply (v : S4096.Idx → Elt F .f32) (idx0 idx1 : ℕ) (e0 : idx0 = 0) (j : Fin 1024) (n : Fin 4096)
    (hn : n.val = 1024 * idx1 + j.val) (i : S1x4096.Idx)
    (hi0 : (i 0).val = idx0 * 1 + 1 * 0) (hi1 : (i 1).val = idx1 * 1024 + 1 * j.val) :
    shapeCast S1x4096 v shapeCasts_S4096_S1x4096 i = v (ix1 n) := by
  have hi : i = ix2 (0 : Fin 1) n := funext fun a => Fin.ext (by
    match a with
    | ⟨0, _⟩ => show (i 0).val = 0; rw [hi0, e0]
    | ⟨1, _⟩ => show (i 1).val = n.val; rw [hi1, hn]; omega)
  rw [hi]
  exact shapeCast_a_1a_apply v _ 0 n

/-- The `alpha_p` block. -/
theorem iblk2_apply (c : Dev nD) (t : Fin cfg0.N) (j : Fin 1024) (n : Fin 4096)
    (hn : n.val = 1024 * (t.val / 8 % 4) + j.val) :
    (iblk m c 2 t : Vec F S1x1024 .f32) (ix2 (0 : Fin 1) j) = m ((c : Thread nD τ).loc main_arg2) (ix1 n) := by
  obtain ⟨-, -, -, -, e0, e1, -⟩ := idx_facts t
  unfold iblk
  rw [View.read_apply]
  show (V m c main_v1 : S1x4096.Idx → Elt F .f32) _ = _
  rw [V_ap]
  exact row_apply _ (win0_2.index t (0 : Fin 2)) (t.val / 8 % 4) e0 j n hn _ rfl (by
    show win0_2.index t (1 : Fin 2) * 1024 + 1 * j.val = _; rw [e1])

/-- The `alpha_n` block. -/
theorem iblk3_apply (c : Dev nD) (t : Fin cfg0.N) (j : Fin 1024) (n : Fin 4096)
    (hn : n.val = 1024 * (t.val / 8 % 4) + j.val) :
    (iblk m c 3 t : Vec F S1x1024 .f32) (ix2 (0 : Fin 1) j) = m ((c : Thread nD τ).loc main_arg3) (ix1 n) := by
  obtain ⟨-, -, -, -, -, -, e0, e1, -⟩ := idx_facts t
  unfold iblk
  rw [View.read_apply]
  show (V m c main_v2 : S1x4096.Idx → Elt F .f32) _ = _
  rw [V_an]
  exact row_apply _ (win0_3.index t (0 : Fin 2)) (t.val / 8 % 4) e0 j n hn _ rfl (by
    show win0_3.index t (1 : Fin 2) * 1024 + 1 * j.val = _; rw [e1])

/-- The bias block. -/
theorem iblk4_apply (c : Dev nD) (t : Fin cfg0.N) (j : Fin 1024) (n : Fin 4096)
    (hn : n.val = 1024 * (t.val / 8 % 4) + j.val) :
    (iblk m c 4 t : Vec F S1x1024 .f32) (ix2 (0 : Fin 1) j) = m ((c : Thread nD τ).loc main_arg4) (ix1 n) := by
  obtain ⟨-, -, -, -, -, -, -, -, e0, e1, -⟩ := idx_facts t
  unfold iblk
  rw [View.read_apply]
  show (V m c main_v3 : S1x4096.Idx → Elt F .f32) _ = _
  rw [V_bias]
  exact row_apply _ (win0_4.index t (0 : Fin 2)) (t.val / 8 % 4) e0 j n hn _ rfl (by
    show win0_4.index t (1 : Fin 2) * 1024 + 1 * j.val = _; rw [e1])

end Cert.KernelIdeal.Blocks

end
-- ==== Proof.KernelValue.lean ====
/-
  The kernel's result array is the specification.

  Fix an output block, that is a run of eight consecutive grid points `8g, …, 8g + 7` (row block `g / 4`, column block
  `g % 4`; the K block is the position in the run). The scratch block is zeroed at the run's first point and every
  point adds its partial product, so after point `8g + s` it holds `0 + ∑_{s' ≤ s}` of the partial products; each partial
  product, read at a block entry, is that K-step's 512 terms of the entry's sum over `k`. The run's last point writes the
  scratch plus the bias row into the output block, and only there is the block written back to the array. The eight
  K-steps' terms are all 4096 terms of the sum, so the block written back is the specification's block; the 32 blocks
  written back tile the array.
-/
import proofs.«116337_j37838661877796_2_alg».proof.Proof.Gen.KernelIdeal.Value
import proofs.«116337_j37838661877796_2_alg».proof.Proof.Pieces
import proofs.«116337_j37838661877796_2_alg».proof.Proof.Payload
import proofs.«116337_j37838661877796_2_alg».proof.Proof.Blocks
import proofs.«116337_j37838661877796_2_alg».proof.Proof.Spec

noncomputable section

namespace Cert.KernelIdeal.TValue

open Cert.KernelIdeal Cert.KernelIdeal.Gen Idealize.ShloMosaic Idealize.ShloMosaic.TcCoe Idealize.SL.Sem
open Idealize.ShloMosaic.ValueIdx Cert.Ternary
open Idealize.ShloMosaic.Pipeline (Dat)

variable (m : (ℓ : Loc nD τ sig) → Buf (Elt Ideal) ℓ) (ρ : Dev nD → PrngReg)

/-- The specification of the five argument arrays as core `c` holds them. -/
abbrev spec (c : Dev nD) : S8192x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-! ## One K-step's partial product is its 512 terms of the entry's sum -/

/-- Row `p` of row block `g / 4`. -/
abbrev rowOf (g : ℕ) (p : Fin 1024) : Fin 8192 :=
  ⟨1024 * (g / 4 % 8) + p.val, by have := p.isLt; have := Nat.mod_lt (g / 4) (by decide : 0 < 8); omega⟩

/-- Column `j` of column block `g % 4`. -/
abbrev colOf (g : ℕ) (j : Fin 1024) : Fin 4096 :=
  ⟨1024 * (g % 4) + j.val, by have := j.isLt; have := Nat.mod_lt g (by decide : 0 < 4); omega⟩

/-- Grid point `n`'s contribution to the output block of run `g`, at the block's entry `y`. -/
def addend (c : Dev nD) (g n : ℕ) : S1024x1024.Idx → EReal := fun y =>
  step (m ((c : Thread nD τ).loc main_arg0)) (m ((c : Thread nD τ).loc main_arg1)) (m ((c : Thread nD τ).loc main_arg2))
    (m ((c : Thread nD τ).loc main_arg3)) (rowOf g (y 0)) (colOf g (y 1)) n

theorem partial_eq (c : Dev nD) (t : Fin cfg0.N) (y : S1024x1024.Idx) :
    k0_pay4 (F := Ideal) (iblk m c 0 t) (iblk m c 1 t) (iblk m c 2 t) (iblk m c 3 t) y = addend m c (t.val / 8) t.val y := by
  obtain ⟨p, j, rfl⟩ : ∃ (p j : Fin 1024), y = ix2 p j := ⟨y 0, y 1, eq_ix2 y⟩
  have hN : t.val < 256 := lt_of_lt_of_eq t.isLt Blocks.N256
  refine (Payload.pay4_apply (iblk m c 0 t) (iblk m c 1 t) (iblk m c 2 t) (iblk m c 3 t) p j).trans ?_
  unfold addend step
  refine Finset.sum_congr rfl fun q _ => ?_
  have hq := q.isLt
  have hm := Nat.mod_lt t.val (by decide : 0 < 8)
  rw [Blocks.iblk0_apply m c t p q (rowOf (t.val / 8) p) ⟨512 * (t.val % 8) + q.val, by omega⟩
      (by show 1024 * (t.val / 8 / 4 % 8) + p.val = _; omega) rfl,
    Blocks.iblk1_apply m c t q j (colOf (t.val / 8) j) ⟨512 * (t.val % 8) + q.val, by omega⟩ rfl rfl,
    Blocks.iblk2_apply m c t j (colOf (t.val / 8) j) rfl,
    Blocks.iblk3_apply m c t j (colOf (t.val / 8) j) rfl]

/-! ## What the scratch holds after each point of a run -/

/-- A run's first point leaves `0 + (its partial product)` in the scratch … -/
theorem scAt_first (c : Dev nD) (n : ℕ) (hb : n < cfg0.N) (h0 : n % 8 = 0) (acc : Vec Ideal S1024x1024 .f32) :
    Value.scAt0_0 m c n hb acc = k0_pay1 (k0_pay4 (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (k0_pay3 (F := Ideal)) := by
  have h1 : ¬n % 8 = 7 := by omega
  unfold Value.scAt0_0
  rw [dif_pos h0, dif_neg h1]
  exact Pieces.sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- … and every later point adds its partial product to what the point before left. -/
theorem scAt_next (c : Dev nD) (n : ℕ) (hb : n < cfg0.N) (h0 : ¬n % 8 = 0) (acc : Vec Ideal S1024x1024 .f32) :
    Value.scAt0_0 m c n hb acc = k0_pay1 (k0_pay4 (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) acc := by
  unfold Value.scAt0_0
  rw [dif_neg h0]
  by_cases h1 : n % 8 = 7
  · rw [dif_pos h1]
    exact Pieces.sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Pieces.sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- After point `t` the scratch holds, entry by entry, the sum of the contributions of the run's points up to `t`. -/
theorem scratch_apply (c : Dev nD) (t : Fin cfg0.N) (y : S1024x1024.Idx) :
    (outsAt0 m c t.val t.isLt).2 y
      = 0 + ∑ s ∈ Finset.range (t.val % 8 + 1), addend m c (t.val / 8) (8 * (t.val / 8) + s) y := by
  have hm := Nat.mod_lt t.val (by decide : 0 < 8)
  rw [Value.soutsAt0_0_eq m c t]
  refine Pipeline.accAt_add_apply _ _ (fun _ => 0) (addend m c (t.val / 8)) (8 * (t.val / 8)) 7 ?_ ?_
    (t.val % 8) (by omega) _ y
  · intro h i
    rw [scAt_first m c _ h (Nat.mul_mod_right 8 _), Payload.pay1_apply, Payload.pay3_apply,
      partial_eq m c ⟨8 * (t.val / 8), h⟩ i]
    show _ + addend m c (8 * (t.val / 8) / 8) _ i = _
    rw [Nat.mul_div_cancel_left _ (by decide : 0 < 8)]
  · intro n h acc i hlt hle
    have hn8 : n / 8 = t.val / 8 := by omega
    rw [scAt_next m c n h (by omega) acc, Payload.pay1_apply, partial_eq m c ⟨n, h⟩ i]
    show _ + addend m c (n / 8) n i = _
    rw [hn8]

/-! ## The block a run's last point writes back -/

/-- At a run's last point the block written back is the scratch of the point before, plus this point's partial
    product, plus the bias row. -/
theorem flushed_block (c : Dev nD) (t : Fin cfg0.N) (h0 : ¬t.val % 8 = 0) (h7 : t.val % 8 = 7) :
    (dats m 0 c).flushed 5 t = (cfg0.win 5).cut (grid0.coords t) (k0_pay2 (k0_pay1 (k0_pay4 (iblk m c 0 t) (iblk m c 1 t) (iblk m c 2 t) (iblk m c 3 t)) (outsAt0 m c (t.val - 1) (Nat.lt_of_le_of_lt (Nat.sub_le _ _) t.isLt)).2) (iblk m c 4 t)) := by
  have e := Value.flushed5_C m c t h0 h7
  rw [Pieces.out_C] at e
  exact e

/-- That block is the specification's block: its entry `y` is entry `(1024·(g/4) + y₀, 1024·(g%4) + y₁)` of `G`, where
    `g = t / 8` numbers the run. The seven earlier K-steps come from the scratch, the eighth is this point's. -/
theorem block_apply (c : Dev nD) (t : Fin cfg0.N) (h7 : t.val % 8 = 7) (y : S1024x1024.Idx) :
    (k0_pay2 (k0_pay1 (k0_pay4 (iblk m c 0 t) (iblk m c 1 t) (iblk m c 2 t) (iblk m c 3 t)) (outsAt0 m c (t.val - 1) (Nat.lt_of_le_of_lt (Nat.sub_le _ _) t.isLt)).2) (iblk m c 4 t)) y = spec m c (ix2 (rowOf (t.val / 8) (y 0)) (colOf (t.val / 8) (y 1))) := by
  obtain ⟨p, j, rfl⟩ : ∃ (p j : Fin 1024), y = ix2 p j := ⟨y 0, y 1, eq_ix2 y⟩
  have hN : t.val < 256 := lt_of_lt_of_eq t.isLt Blocks.N256
  have hprev := scratch_apply m c ⟨t.val - 1, Nat.lt_of_le_of_lt (Nat.sub_le _ _) t.isLt⟩ (ix2 p j)
  have h6 : (t.val - 1) % 8 + 1 = 7 := by omega
  have hg : (t.val - 1) / 8 = t.val / 8 := by omega
  dsimp only at hprev
  rw [h6, hg] at hprev
  rw [Payload.pay2_apply, Payload.pay1_apply, hprev, partial_eq m c t (ix2 p j),
    Blocks.iblk4_apply m c t j (colOf (t.val / 8) j) rfl]
  have hs : ∀ s : ℕ, addend m c (t.val / 8) (8 * (t.val / 8) + s) (ix2 p j) = step (m ((c : Thread nD τ).loc main_arg0)) (m ((c : Thread nD τ).loc main_arg1)) (m ((c : Thread nD τ).loc main_arg2)) (m ((c : Thread nD τ).loc main_arg3)) (rowOf (t.val / 8) p) (colOf (t.val / 8) j) s := fun s =>
    step_add (m ((c : Thread nD τ).loc main_arg0)) (m ((c : Thread nD τ).loc main_arg1)) (m ((c : Thread nD τ).loc main_arg2)) (m ((c : Thread nD τ).loc main_arg3)) (rowOf (t.val / 8) p) (colOf (t.val / 8) j) (t.val / 8) s
  have ht : t.val = 8 * (t.val / 8) + 7 := by omega
  have hlast : addend m c (t.val / 8) t.val (ix2 p j) = step (m ((c : Thread nD τ).loc main_arg0)) (m ((c : Thread nD τ).loc main_arg1)) (m ((c : Thread nD τ).loc main_arg2)) (m ((c : Thread nD τ).loc main_arg3)) (rowOf (t.val / 8) p) (colOf (t.val / 8) j) 7 :=
    (congrArg (step (m ((c : Thread nD τ).loc main_arg0)) (m ((c : Thread nD τ).loc main_arg1)) (m ((c : Thread nD τ).loc main_arg2)) (m ((c : Thread nD τ).loc main_arg3)) (rowOf (t.val / 8) p) (colOf (t.val / 8) j)) ht).trans
      (step_add (m ((c : Thread nD τ).loc main_arg0)) (m ((c : Thread nD τ).loc main_arg1)) (m ((c : Thread nD τ).loc main_arg2)) (m ((c : Thread nD τ).loc main_arg3)) (rowOf (t.val / 8) p) (colOf (t.val / 8) j) (t.val / 8) 7)
  simp only [hs]
  rw [hlast, zero_add, ← Finset.sum_range_succ (fun s => step (m ((c : Thread nD τ).loc main_arg0)) (m ((c : Thread nD τ).loc main_arg1)) (m ((c : Thread nD τ).loc main_arg2)) (m ((c : Thread nD τ).loc main_arg3)) (rowOf (t.val / 8) p) (colOf (t.val / 8) j) s) 7,
    ← sum_steps (m ((c : Thread nD τ).loc main_arg0)) (m ((c : Thread nD τ).loc main_arg1)) (m ((c : Thread nD τ).loc main_arg2)) (m ((c : Thread nD τ).loc main_arg3)) (rowOf (t.val / 8) p) (colOf (t.val / 8) j)]
  rfl

/-! ## From the blocks to the array -/

/-- What a run's last point writes back is its block of the specification. -/
theorem flushed_eq (c : Dev nD) (t : Fin cfg0.N) (hf : (cfg0.win 5).flush t = true) :
    (dats m 0 c).flushed 5 t = ((cfg0.win 5).blk t).view.read (Elt Ideal) (spec m c) := by
  have h7 : t.val % 8 = 7 := (flush0_5 t).mp hf
  have hN : t.val < 256 := lt_of_lt_of_eq t.isLt Blocks.N256
  obtain ⟨-, -, -, -, -, -, -, -, -, -, e0, e1⟩ := Blocks.idx_facts t
  rw [flushed_block m c t (by omega) h7]
  funext y
  have hy0 : (y 0).val < 1024 := (y 0).isLt
  have hy1 : (y 1).val < 1024 := (y 1).isLt
  show (k0_pay2 (k0_pay1 (k0_pay4 (iblk m c 0 t) (iblk m c 1 t) (iblk m c 2 t) (iblk m c 3 t)) (outsAt0 m c (t.val - 1) (Nat.lt_of_le_of_lt (Nat.sub_le _ _) t.isLt)).2) (iblk m c 4 t)) ((cfg0.win 5).xinj (grid0.coords t) y) = spec m c (((cfg0.win 5).blk t).view.emb y)
  rw [block_apply m c t h7]
  congr 1
  funext a
  apply Fin.ext
  match a with
  | ⟨0, _⟩ =>
    show 1024 * (t.val / 8 / 4 % 8) + (y 0).val = win0_5.index t (0 : Fin 2) * 1024 + 1 * (y 0).val
    rw [e0]; omega
  | ⟨1, _⟩ =>
    show 1024 * (t.val / 8 % 4) + (y 1).val = win0_5.index t (1 : Fin 2) * 1024 + 1 * (y 1).val
    rw [e1]; omega

/-- An index of the array is in point `t`'s output block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v4).slice (win0_5.rect t)).set ↔ _
  rw [View.set_slice_whole, Rect.mem_set_unit]
  exact Iff.rfl

/-- The 32 blocks written back tile the array: entry `(r, n)` lies in the block of the last point of run
    `4·(r / 1024) + n / 1024`. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hlt : 8 * (4 * ((i 0).val / 1024) + (i 1).val / 1024) + 7 < cfg0.N := by rw [Blocks.N256]; omega
  refine ⟨⟨8 * (4 * ((i 0).val / 1024) + (i 1).val / 1024) + 7, hlt⟩, (flush0_5 _).mpr (by show (8 * _ + 7) % 8 = 7; omega), ?_⟩
  obtain ⟨-, -, -, -, -, -, -, -, -, -, e0, e1⟩ :=
    Blocks.idx_facts ⟨8 * (4 * ((i 0).val / 1024) + (i 1).val / 1024) + 7, hlt⟩
  rw [mem_blk]
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 1024 ≤ (i 1).val ∧ (i 1).val < win0_5.index _ (1 : Fin 2) * 1024 + 1024
    rw [e1]; dsimp only; omega

/-- So the result array ends holding the specification of the five arguments. -/
theorem final (c : Dev nD) : (dats m 0 c).arrAt 5 cfg0.N = spec m c :=
  (dats m 0 c).arrAt_eq_of_cover 5 (spec m c) (fun t hf => flushed_eq m c t hf) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.TValue

end
-- ==== Proof.lean ====
/-
  A ternary GEMM with per-channel scales: the kernel against its reference, on the extended reals.

  Both programs compute, for activations `X` [8192, 4096], latent weights `W` [4096, 4096] and per-output-channel
  vectors `ap`, `an`, `b` [4096],

      out (r, n) = ( ∑ₖ act (X (r, k)) · wgt (W (n, k)) (ap n) (an n) ) + b n

  (Proof/Spec.lean: `act` the ternary sign against the threshold, `wgt` the scaled ternary weight).

    * The reference clips the activations before taking their sign and builds the weight from the sign's two indicator
      planes; neither changes the function (Proof/Spec.lean `act_clip`, `planes_eq_wgt`), so its result is the
      specification (Proof/RefValue.lean).
    * The kernel tiles the output in 8 × 4 blocks of 1024 × 1024 and the sum over `k` in 8 blocks of 512. Along a run of
      eight grid points a scratch block accumulates the eight partial products from zero, and the run's last point
      writes the scratch plus the bias row to the output block (Proof/Pieces.lean, Proof/Payload.lean). A partial
      product is its K block's 512 terms of each entry's sum (Proof/Blocks.lean), sums of extended reals may be
      regrouped freely, and the 32 blocks tile the array: the result array is the specification (Proof/KernelValue.lean).

  No step uses that the inputs are finite. The idealization rewrote nothing in the kernel, so the kernel's idealized
  form is its own text read on the extended reals.
-/
import proofs.«116337_j37838661877796_2_alg».proof.Defs
import proofs.«116337_j37838661877796_2_alg».proof.Proof.Gen.Kernel
import proofs.«116337_j37838661877796_2_alg».proof.Proof.Gen.Kernel.Skeleton
import proofs.«116337_j37838661877796_2_alg».proof.Proof.Gen.Kernel.Launch
import proofs.«116337_j37838661877796_2_alg».proof.Proof.Gen.Kernel.Points
import proofs.«116337_j37838661877796_2_alg».proof.Proof.Gen.Kernel.Frame
import proofs.«116337_j37838661877796_2_alg».proof.Proof.Gen.KernelIdeal
import proofs.«116337_j37838661877796_2_alg».proof.Proof.Gen.KernelIdeal.Skeleton
import proofs.«116337_j37838661877796_2_alg».proof.Proof.Gen.KernelIdeal.Launch
import proofs.«116337_j37838661877796_2_alg».proof.Proof.Gen.KernelIdeal.Points
import proofs.«116337_j37838661877796_2_alg».proof.Proof.Gen.KernelIdeal.Frame
import proofs.«116337_j37838661877796_2_alg».proof.Proof.Gen.ReferenceIdeal
import proofs.«116337_j37838661877796_2_alg».proof.Proof.Gen.Pre_finite_inputs
import proofs.«116337_j37838661877796_2_alg».proof.Proof.Gen.KernelIdeal.Value
import proofs.«116337_j37838661877796_2_alg».proof.Proof.RefRun
import proofs.«116337_j37838661877796_2_alg».proof.Proof.RefRead
import proofs.«116337_j37838661877796_2_alg».proof.Proof.RefValue
import proofs.«116337_j37838661877796_2_alg».proof.Proof.KernelValue
import Idealize.ShloMosaic.Adequacy
import Idealize.ShloMosaic.Init

noncomputable section

namespace Cert.Proof

open Idealize.ShloMosaic Idealize.SL.Sem Cert.Kernel

/-- The kernel as printed runs, faults nowhere and leaves its arguments as they were. -/
theorem frame_k : Cert.frame_Kernel := fun m ρ _ => Cert.Kernel.Gen.frame m ρ

/-- The same of the kernel read on the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- On the extended reals, from memories that agree on the five arguments, the kernel's result array and the
    reference's both end at the specification of those arguments. -/
theorem algebraic : Cert.algebraic_KernelIdeal_ReferenceIdeal := by
  intro m ρ m' ρ' _ hagree
  refine ⟨fun c => Cert.KernelIdeal.TValue.spec m c, Cert.KernelIdeal.TValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v31_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
